-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x256x256 : Shape := ⟨4, ![16, 64, 256, 256]⟩
abbrev S1024x1024 : Shape := ⟨2, ![1024, 1024]⟩
abbrev S_ : Shape := ⟨0, ![]⟩

class Facts : Prop where
  bcast_S_S16x64x256x256 : S_.BroadcastsInDim S16x64x256x256 (![] : Fin 0 → Fin S16x64x256x256.rank)
  reducesTo_S16x64x256x256_S_d0_1_2_3 : S16x64x256x256.ReducesTo [0, 1, 2, 3] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S16x64x256x256 .f32) (main_arg1 : FVec F S1024x1024 .f32) : IVec S_ 1 :=
  let main_v0 : FVec F S16x64x256x256 .f32 := Host.absf main_arg0
  let main_cst : FVec F S_ .f32 := constant S_ .f32 0x7F800000#32
  let main_v1 : FVec F S16x64x256x256 .f32 := broadcastInDim S16x64x256x256 ![] bcast_S_S16x64x256x256 main_cst
  let main_v2 : IVec S16x64x256x256 1 := cmpf .olt main_v0 main_v1
  let main_c : IVec S_ 1 := constantI S_ 1 1#1
  let main_v3 : IVec S_ 1 := (fun x v => Host.reduce IntOp.andi x v reducesTo_S16x64x256x256_S_d0_1_2_3 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S16x64x256x256 : Shape := ⟨4, ![16, 64, 256, 256]⟩
abbrev S1024x1024 : Shape := ⟨2, ![1024, 1024]⟩
abbrev S16x64x64x4x64x4 : Shape := ⟨6, ![16, 64, 64, 4, 64, 4]⟩
abbrev S16x64x64x64x4x4 : Shape := ⟨6, ![16, 64, 64, 64, 4, 4]⟩
abbrev S65536x1024 : Shape := ⟨2, ![65536, 1024]⟩

abbrev nBuf : Space → Nat
  | .hbm => 12
  | .vmem => 5
  | .smem => 0
  | _ => 0

abbrev bufTy : (tb : Table) → Fin (tcTables nBuf tb) → BufTy
  | .hbm, ⟨0, _⟩ => ⟨S16x64x256x256, .f32⟩
  | .hbm, ⟨1, _⟩ => ⟨S1024x1024, .f32⟩
  | .hbm, ⟨2, _⟩ => ⟨S16x64x64x4x64x4, .f32⟩
  | .hbm, ⟨3, _⟩ => ⟨S16x64x64x64x4x4, .f32⟩
  | .hbm, ⟨4, _⟩ => ⟨S65536x1024, .f32⟩
  | .hbm, ⟨5, _⟩ => ⟨S65536x1024, .bf16⟩
  | .hbm, ⟨6, _⟩ => ⟨S1024x1024, .f32⟩
  | .hbm, ⟨7, _⟩ => ⟨S1024x1024, .bf16⟩
  | .hbm, ⟨8, _⟩ => ⟨S65536x1024, .f32⟩
  | .hbm, ⟨9, _⟩ => ⟨S16x64x64x64x4x4, .f32⟩
  | .hbm, ⟨10, _⟩ => ⟨S16x64x64x4x64x4, .f32⟩
  | .hbm, ⟨11, _⟩ => ⟨S16x64x256x256, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S16x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x64x256x256_S16x64x64x4x64x4 : S16x64x256x256.ShapeCasts S16x64x64x4x64x4
  transposes_S16x64x64x4x64x4_S16x64x64x64x4x4_0_2_4_1_3_5 : S16x64x64x4x64x4.Transposes [0, 2, 4, 1, 3, 5] S16x64x64x64x4x4
  shapeCasts_S16x64x64x64x4x4_S65536x1024 : S16x64x64x64x4x4.ShapeCasts S65536x1024
  bitsLt_bf16_f32 : FTy.bits .bf16 < FTy.bits .f32
  transposes_S1024x1024_S1024x1024_1_0 : S1024x1024.Transposes [1, 0] S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S65536x1024_S16x64x64x64x4x4 : S65536x1024.ShapeCasts S16x64x64x64x4x4
  transposes_S16x64x64x64x4x4_S16x64x64x4x64x4_0_3_1_4_2_5 : S16x64x64x64x4x4.Transposes [0, 3, 1, 4, 2, 5] S16x64x64x4x64x4
  shapeCasts_S16x64x64x4x64x4_S16x64x256x256 : S16x64x64x4x64x4.ShapeCasts S16x64x256x256
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .bf16 = 32 ∨ (Rect.block (s := S65536x1024) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S65536x1024.size a
  hwx0_2 : ∀ i : grid0.Coords, EltTy.bits .f32 = 32 ∨ (Rect.block (s := S65536x1024) S1024x1024.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v3) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x64x256x256 : Shape := ⟨4, ![16, 64, 256, 256]⟩
abbrev S1024x1024 : Shape := ⟨2, ![1024, 1024]⟩
abbrev S16x64x64x4x64x4 : Shape := ⟨6, ![16, 64, 64, 4, 64, 4]⟩
abbrev S16x64x64x64x4x4 : Shape := ⟨6, ![16, 64, 64, 64, 4, 4]⟩
abbrev S16x4096x1024 : Shape := ⟨3, ![16, 4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16x64x256x256, .f32⟩
  | .hbm, ⟨1, _⟩ => ⟨S1024x1024, .f32⟩
  | .hbm, ⟨2, _⟩ => ⟨S16x64x64x4x64x4, .f32⟩
  | .hbm, ⟨3, _⟩ => ⟨S16x64x64x64x4x4, .f32⟩
  | .hbm, ⟨4, _⟩ => ⟨S16x4096x1024, .f32⟩
  | .hbm, ⟨5, _⟩ => ⟨S16x4096x1024, .f32⟩
  | .hbm, ⟨6, _⟩ => ⟨S16x64x64x64x4x4, .f32⟩
  | .hbm, ⟨7, _⟩ => ⟨S16x64x64x4x64x4, .f32⟩
  | .hbm, ⟨8, _⟩ => ⟨S16x64x256x256, .f32⟩
  | _, _ => ⟨S16x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]

class Facts₀ : Prop where
  shapeCasts_S16x64x256x256_S16x64x64x4x64x4 : S16x64x256x256.ShapeCasts S16x64x64x4x64x4
  transposes_S16x64x64x4x64x4_S16x64x64x64x4x4_0_2_4_1_3_5 : S16x64x64x4x64x4.Transposes [0, 2, 4, 1, 3, 5] S16x64x64x64x4x4
  shapeCasts_S16x64x64x64x4x4_S16x4096x1024 : S16x64x64x64x4x4.ShapeCasts S16x4096x1024
  shapeCasts_S16x4096x1024_S16x64x64x64x4x4 : S16x4096x1024.ShapeCasts S16x64x64x64x4x4
  transposes_S16x64x64x64x4x4_S16x64x64x4x64x4_0_3_1_4_2_5 : S16x64x64x64x4x4.Transposes [0, 3, 1, 4, 2, 5] S16x64x64x4x64x4
  shapeCasts_S16x64x64x4x64x4_S16x64x256x256 : S16x64x64x4x64x4.ShapeCasts S16x64x256x256
  dot_S16x4096x1024_S1024x1024_S16x4096x1024_2_1_01_0_n_n_wf : DotDims.WF S16x4096x1024 S1024x1024 S16x4096x1024 [2] [1] [0, 1] [0] [] []

variable [Facts₀]

def dot_S16x4096x1024_S1024x1024_S16x4096x1024_2_1_01_0_n_n : DotDims S16x4096x1024 S1024x1024 S16x4096x1024 where
  lhsContracting := [2]
  rhsContracting := [1]
  lhsNonContracting := [0, 1]
  rhsNonContracting := [0]
  lhsBatch := []
  rhsBatch := []
  wf := dot_S16x4096x1024_S1024x1024_S16x4096x1024_2_1_01_0_n_n_wf

class Facts : Prop extends Facts₀ where

variable [Facts]
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«175172_j6133213298738_2_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.PatchMix.lean ====
/-
  Patch-wise mixing of an image batch, as one function of whole arrays on the extended reals.

  An image batch X of shape 16×64×256×256 (batch, channel, row, column) is cut into non-overlapping 4×4 patches:
  the rows split as 64 patch rows of 4 pixels, the columns as 64 patch columns of 4 pixels, and the axes are
  re-ordered to (batch, patch row, patch column, channel, pixel row, pixel column). Read in row-major order this is
  a table with one line per patch — 16·64·64 = 65536 lines — and one column per (channel, pixel) feature — 64·4·4 = 1024
  columns. Every line is multiplied by the transpose of a 1024×1024 weight matrix W: entry (r, e) of the product is
  the sum over d of line r's feature d times W(e, d). The product table is then folded back to an image batch by
  the inverse re-ordering.

  The same table can be kept as 16 tables of 4096 lines, one per image, and each multiplied by the transposed
  weights. Re-shaping is re-reading the same row-major sequence, line r = 4096·b + l of the long table is line l of
  image b's table, and an entry of a product only reads one line of its left operand; so the two products are the
  same row-major sequence, and fold back to the same image batch. Sums on the extended reals may be taken in any
  order, so nothing here asks the entries to be finite. Nothing here mentions a program.
-/
import Idealize.ShloMosaic.Lib.ValueIdx
import Idealize.ShloMosaic.Lib.Pipeline.Value
import proofs.«175172_j6133213298738_2_alg».proof.Proof.LibMatProd

open scoped BigOperators

noncomputable section

namespace Cert.PatchMix

open Idealize.ShloMosaic Idealize.ShloMosaic.ValueIdx Cert.Lib.MatProd

/-! ## The shapes -/

/-- The image batch: (batch, channel, row, column). -/
abbrev SImg : Shape := ⟨4, ![16, 64, 256, 256]⟩
/-- Rows and columns split into patch and pixel coordinates: (batch, channel, patch row, pixel row, patch column, pixel column). -/
abbrev SSplit : Shape := ⟨6, ![16, 64, 64, 4, 64, 4]⟩
/-- Patch coordinates first: (batch, patch row, patch column, channel, pixel row, pixel column). -/
abbrev SPatch : Shape := ⟨6, ![16, 64, 64, 64, 4, 4]⟩
/-- One line per patch, one column per feature. -/
abbrev SRows : Shape := ⟨2, ![65536, 1024]⟩
/-- One table of 4096 lines per image. -/
abbrev SBatch : Shape := ⟨3, ![16, 4096, 1024]⟩
/-- The weights. -/
abbrev SW : Shape := ⟨2, ![1024, 1024]⟩

theorem hImgSplit : SImg.ShapeCasts SSplit := by decide
theorem hSplitPatch : SSplit.Transposes [0, 2, 4, 1, 3, 5] SPatch := by decide
theorem hPatchRows : SPatch.ShapeCasts SRows := by decide
theorem hPatchBatch : SPatch.ShapeCasts SBatch := by decide
theorem hRowsBatch : SRows.ShapeCasts SBatch := by decide
theorem hRowsPatch : SRows.ShapeCasts SPatch := by decide
theorem hBatchPatch : SBatch.ShapeCasts SPatch := by decide
theorem hPatchSplit : SPatch.Transposes [0, 3, 1, 4, 2, 5] SSplit := by decide
theorem hSplitImg : SSplit.ShapeCasts SImg := by decide

/-! ## Re-shaping twice -/

/-- Re-shaping to one shape and then to another is re-shaping to the last: all three read the same row-major
    sequence. -/
theorem shapeCast_comp {s t u : Shape} {α : Type} (v : s.Idx → α) (h : s.ShapeCasts t) (h' : t.ShapeCasts u)
    (h'' : s.ShapeCasts u) : shapeCast u (shapeCast t v h) h' = shapeCast u v h'' :=
  funext fun i => congrArg v (Shape.reshapeEquiv_reshapeEquiv h h' i)

/-! ## The two products -/

/-- The transposed weights: entry (d, e) is W(e, d). -/
def wT (W : SW.Idx → EReal) : SW.Idx → EReal := fun j => W (ix2 (j 1) (j 0))

/-- Swapping the two axes of the weights gives the transposed weights. -/
theorem transpose_eq_wT (W : SW.Idx → EReal) (h : SW.Transposes [1, 0] SW) : transpose SW [1, 0] W h = wT W :=
  funext fun j => transpose_apply [1, 0] W h j (ix2 (j 1) (j 0)) (fun b => match b with
    | ⟨0, _⟩ => rfl
    | ⟨1, _⟩ => rfl)

/-- The long table times the transposed weights: entry (r, e) is the sum over d of A(r, d) · W(e, d). -/
def mixRows (A : SRows.Idx → EReal) (W : SW.Idx → EReal) : SRows.Idx → EReal :=
  matProd (m := 65536) (k := 1024) (n := 1024) A (wT W)

/-- Each image's table times the transposed weights: entry (b, l, e) is the sum over d of A(b, l, d) · W(e, d). -/
def mixBatch (A : SBatch.Idx → EReal) (W : SW.Idx → EReal) : SBatch.Idx → EReal :=
  fun i => ∑ d : Fin 1024, A (ix3 (i 0) (i 1) d) * W (ix2 (i 2) d)

/-- Line l of image b's table is line 4096·b + l of the long table, so the per-image products are the long
    product re-shaped. -/
theorem mixBatch_shapeCast (A : SRows.Idx → EReal) (W : SW.Idx → EReal) :
    mixBatch (shapeCast SBatch A hRowsBatch) W = shapeCast SBatch (mixRows A W) hRowsBatch := by
  funext i
  obtain ⟨b, l, e, rfl⟩ : ∃ (b : Fin 16) (l : Fin 4096) (e : Fin 1024), i = ix3 b l e := ⟨i 0, i 1, i 2, eq_ix3 i⟩
  have hr : b.val * 4096 + l.val < 65536 := by
    have := b.isLt; have := l.isLt; omega
  have hA : ∀ d : Fin 1024, shapeCast SBatch A hRowsBatch (ix3 b l d)
      = A (ix2 (⟨b.val * 4096 + l.val, hr⟩ : Fin 65536) d) := fun d =>
    shapeCast_apply A hRowsBatch _ _ (by
      rw [Shape.rowMajor_val_two, Shape.rowMajor_val_three]
      rfl)
  rw [shapeCast_apply (mixRows A W) hRowsBatch (ix3 b l e) (ix2 (⟨b.val * 4096 + l.val, hr⟩ : Fin 65536) e) (by
    rw [Shape.rowMajor_val_two, Shape.rowMajor_val_three]
    rfl)]
  show ∑ d : Fin 1024, shapeCast SBatch A hRowsBatch (ix3 b l d) * W (ix2 e d)
    = matProd (m := 65536) (k := 1024) (n := 1024) A (wT W) (ix2 (⟨b.val * 4096 + l.val, hr⟩ : Fin 65536) e)
  rw [matProd_apply]
  exact Finset.sum_congr rfl fun d _ => by rw [hA d]; rfl

/-! ## The whole function -/

/-- The image batch cut into patches. -/
def patches (X : SImg.Idx → EReal) : SPatch.Idx → EReal :=
  transpose SPatch [0, 2, 4, 1, 3, 5] (shapeCast SSplit X hImgSplit) hSplitPatch

/-- Patches put back as an image batch. -/
def fold (Y : SPatch.Idx → EReal) : SImg.Idx → EReal :=
  shapeCast SImg (transpose SSplit [0, 3, 1, 4, 2, 5] Y hPatchSplit) hSplitImg

/-- The patch-wise mix: cut into patches, multiply every patch's feature line by the transposed weights, fold back. -/
def mixed (X : SImg.Idx → EReal) (W : SW.Idx → EReal) : SImg.Idx → EReal :=
  fold (shapeCast SPatch (mixRows (shapeCast SRows (patches X) hPatchRows) W) hRowsPatch)

/-- Done image by image it is the same function. -/
theorem mixed_eq_batch (X : SImg.Idx → EReal) (W : SW.Idx → EReal) :
    fold (shapeCast SPatch (mixBatch (shapeCast SBatch (patches X) hPatchBatch) W) hBatchPatch) = mixed X W := by
  unfold mixed
  rw [← shapeCast_comp (patches X) hPatchRows hRowsBatch hPatchBatch, mixBatch_shapeCast,
    shapeCast_comp _ hRowsBatch hBatchPatch hRowsPatch]

end Cert.PatchMix

end
-- ==== Proof.LibRowBlocks.lean ====
/-
  Blocks of rows of a matrix product. An entry of a product depends on one row of the left operand, so a block of
  consecutive rows of A, multiplied by B, is the same block of rows of the product of A with B. Stated here with the
  two indices as variables: the index y inside the block and the index i of the whole array it sits at.
  Nothing here mentions a program.
-/
import Idealize.ShloMosaic.Lib.ValueIdx
import proofs.«175172_j6133213298738_2_alg».proof.Proof.LibMatProd

open scoped BigOperators

noncomputable section

namespace Cert.Lib.RowBlocks

open Idealize.ShloMosaic Idealize.ShloMosaic.ValueIdx Cert.Lib.MatProd

/-- The zero offset of a rank-2 rectangle, as a constant function. -/
theorem zero_offset2 : (![0, 0] : Fin 2 → Nat) = fun _ => 0 := funext fun a => by fin_cases a <;> rfl

/-- If row (y 0) of A' is row (i 0) of A, and y and i have the same column, the product of A' with B at y is the
    product of A with B at i. -/
theorem matProd_rows {m m' k n : Nat} (A : (⟨2, ![m, k]⟩ : Shape).Idx → EReal) (A' : (⟨2, ![m', k]⟩ : Shape).Idx → EReal)
    (B : (⟨2, ![k, n]⟩ : Shape).Idx → EReal) (y : (⟨2, ![m', n]⟩ : Shape).Idx) (i : (⟨2, ![m, n]⟩ : Shape).Idx)
    (hA : ∀ c : Fin k, A' (ix2 (⟨(y 0).val, idx2_lt0 y⟩ : Fin m') c) = A (ix2 (⟨(i 0).val, idx2_lt0 i⟩ : Fin m) c))
    (hcol : (y 1).val = (i 1).val) :
    matProd A' B y = matProd A B i := by
  obtain ⟨p, q, rfl⟩ : ∃ (p : Fin m') (q : Fin n), y = ix2 p q := ⟨y 0, y 1, eq_ix2 y⟩
  obtain ⟨r, s, rfl⟩ : ∃ (r : Fin m) (s : Fin n), i = ix2 r s := ⟨i 0, i 1, eq_ix2 i⟩
  have hqs : q = s := Fin.ext hcol
  subst hqs
  exact matProd_block A A' B B p q r q hA (fun _ => rfl)

end Cert.Lib.RowBlocks

end
-- ==== Proof.KernelSide.lean ====
/-
  The kernel program's result is the patch-wise mix of its two arguments.

  Before the launch the host cuts the image batch into patches, lays them out as the long table (one line per
  patch, 65536 lines of 1024 features) and transposes the weights; both changes of float format are the identity on
  the extended reals. The launch visits 64 grid points; point t multiplies lines 1024·t … 1024·t + 1023 of the
  table by the whole transposed weight matrix and writes the result to the same lines of the output table. An entry
  of a matrix product reads one line of the left operand, so what point t writes is lines 1024·t … of the product of
  the WHOLE table with the transposed weights; the 64 blocks of lines cover the output table, which therefore ends
  as that product. After the launch the host folds the table back to an image batch.
-/
import proofs.«175172_j6133213298738_2_alg».proof.Proof.Gen.KernelIdeal.Frame
import proofs.«175172_j6133213298738_2_alg».proof.Proof.PatchMix
import proofs.«175172_j6133213298738_2_alg».proof.Proof.LibRowBlocks
import Idealize.ShloMosaic.Lib.Pipeline.Value
import Idealize.ShloMosaic.Lib.StableHlo.Run

set_option maxRecDepth 16384

open scoped BigOperators

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx Cert.PatchMix Cert.Lib.MatProd Cert.Lib.RowBlocks

variable (m : (ℓ : Loc nD τ sig) → Buf (Elt Ideal) ℓ) (ρ : Dev nD → PrngReg)

/-! ## What the launch finds -/

/-- The left operand's array at the launch: the long patch table of the image batch. -/
theorem table_eq (c : Dev nD) : (V m c main_v3 : S65536x1024.Idx → EReal)
    = shapeCast SRows (patches (m ((c : Thread nD τ).loc main_arg0))) hPatchRows := by
  show StableHlo.after hostOps0 (fun b => m (c, b)) (Proc.devRef .tc main_v3) = _
  after_results
  rfl

/-- The right operand's array at the launch: the transposed weights. -/
theorem weights_eq (c : Dev nD) : (V m c main_v5 : S1024x1024.Idx → EReal)
    = wT (m ((c : Thread nD τ).loc main_arg1)) := by
  refine Eq.trans (b := transpose SW [1, 0] (m ((c : Thread nD τ).loc main_arg1)) transposes_S1024x1024_S1024x1024_1_0) ?_
    (transpose_eq_wT _ _)
  show StableHlo.after hostOps0 (fun b => m (c, b)) (Proc.devRef .tc main_v5) = _
  after_results
  rfl

/-! ## The body's product -/

/-- The body's stored value is the product of its two loaded blocks. -/
theorem pay_eq (x0 x1 : Vec Ideal S1024x1024 .bf16) :
    k0_pay1 (F := Ideal) x0 x1 = matProd (m := 1024) (k := 1024) (n := 1024) x0 x1 := by
  unfold k0_pay1
  simp only [shapeCast_self]
  exact matmul_zero_eq_matProd _ rfl rfl rfl rfl rfl rfl none x0 x1

/-- If the first loaded block holds, on the line of y, the line of i of a table A, the second loaded block is B, and y
    and i are in the same column, the body's stored value at y is the product of A with B at i. -/
theorem pay_at (A : S65536x1024.Idx → EReal) (B : S1024x1024.Idx → EReal) (x0 x1 : Vec Ideal S1024x1024 .bf16)
    (y : S1024x1024.Idx) (i : S65536x1024.Idx)
    (h0 : ∀ d : Fin 1024, x0 (ix2 (⟨(y 0).val, idx2_lt0 y⟩ : Fin 1024) d) = A (ix2 (⟨(i 0).val, idx2_lt0 i⟩ : Fin 65536) d))
    (h1 : x1 = B) (hcol : (y 1).val = (i 1).val) :
    k0_pay1 (F := Ideal) x0 x1 y = matProd (m := 65536) (k := 1024) (n := 1024) A B i := by
  subst h1
  rw [pay_eq]
  exact matProd_rows A x0 x1 y i h0 hcol

/-! ## From blocks to the output table -/

theorem hz : (![0, 0] : Fin 2 → Nat) = fun _ => 0 := funext fun a => by fin_cases a <;> rfl

/-- The printed index maps over the 64 grid points: the left operand's and the output's blocks are block t of
    lines, the right operand's block is the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the whole table with the transposed weights. -/
theorem flushed_eq (c : Dev nD) (t : Fin cfg0.N) :
    (dats m 0 c).flushed 2 t = ((cfg0.win 2).blk t).view.read (Elt Ideal)
      (matProd (m := 65536) (k := 1024) (n := 1024) (V m c main_v3) (V m c main_v5)) := by
  show (cfg0.win 2).cut (grid0.coords t) ((dats m 0 c).after 2 t) = _
  rw [after0_2]
  unfold out0_2
  rw [View.canon_unit_zero hz]
  simp only [View.ld_unit_zero (S := S1024x1024) hz]
  obtain ⟨e0, e1, e2, e3, e4, e5⟩ := idx_facts t
  funext y
  show k0_pay1 (F := Ideal) (iblk m c 0 t) (iblk m c 1 t) y
    = matProd (m := 65536) (k := 1024) (n := 1024) (V m c main_v3) (V m c main_v5) (((cfg0.win 2).blk t).view.emb y)
  refine pay_at (V m c main_v3) (V m c main_v5) (iblk m c 0 t) (iblk m c 1 t) y (((cfg0.win 2).blk t).view.emb y)
    (fun d => ?_) (funext fun z => ?_) ?_
  · show V m c main_v3 (((cfg0.win 0).blk t).view.emb (ix2 (⟨(y 0).val, idx2_lt0 y⟩ : Fin 1024) d)) = _
    refine congrArg (V m c main_v3) (funext fun a => Fin.ext ?_)
    match a with
    | ⟨0, _⟩ =>
      show win0_0.index t (0 : Fin 2) * 1024 + 1 * (y 0).val = win0_2.index t (0 : Fin 2) * 1024 + 1 * (y 0).val
      rw [e0, e4]
    | ⟨1, _⟩ =>
      show win0_0.index t (1 : Fin 2) * 1024 + 1 * d.val = d.val
      rw [e1]; omega
  · show V m c main_v5 (((cfg0.win 1).blk t).view.emb z) = V m c main_v5 z
    refine congrArg (V m c main_v5) (funext fun a => Fin.ext ?_)
    match a with
    | ⟨0, _⟩ =>
      show win0_1.index t (0 : Fin 2) * 1024 + 1 * (z 0).val = (z 0).val
      rw [e2]; omega
    | ⟨1, _⟩ =>
      show win0_1.index t (1 : Fin 2) * 1024 + 1 * (z 1).val = (z 1).val
      rw [e3]; omega
  · show (y 1).val = win0_2.index t (1 : Fin 2) * 1024 + 1 * (y 1).val
    rw [e5]; omega

/-- An index of the output table is in point t's block iff each coordinate is in the block's range. -/
theorem mem_blk (t : Fin cfg0.N) (i : S65536x1024.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v6).slice (win0_2.rect t)).set ↔ _
  rw [View.set_slice_whole, Rect.mem_set_unit]
  exact Iff.rfl

/-- Line r of the output table is written by point r / 1024. -/
theorem cover (i : S65536x1024.Idx) :
    ∃ t : Fin cfg0.N, (cfg0.win 2).flush t = true ∧ i ∈ ((cfg0.win 2).blk t).view.set := by
  have hi0 : (i 0).val < 65536 := (i 0).isLt
  have hi1 : (i 1).val < 1024 := (i 1).isLt
  have ht : (i 0).val / 1024 < cfg0.N := lt_of_lt_of_eq (by omega : (i 0).val / 1024 < 64) N_0.symm
  refine ⟨⟨(i 0).val / 1024, ht⟩, flush0_2 _, ?_⟩
  rw [mem_blk]
  obtain ⟨-, -, -, -, e4, e5⟩ := idx_facts ⟨(i 0).val / 1024, ht⟩
  intro a
  match a with
  | ⟨0, _⟩ =>
    show win0_2.index ⟨(i 0).val / 1024, ht⟩ (0 : Fin 2) * 1024 ≤ (i 0).val
      ∧ (i 0).val < win0_2.index ⟨(i 0).val / 1024, ht⟩ (0 : Fin 2) * 1024 + 1024
    rw [e4]
    show (i 0).val / 1024 * 1024 ≤ (i 0).val ∧ (i 0).val < (i 0).val / 1024 * 1024 + 1024
    omega
  | ⟨1, _⟩ =>
    show win0_2.index ⟨(i 0).val / 1024, ht⟩ (1 : Fin 2) * 1024 ≤ (i 1).val
      ∧ (i 1).val < win0_2.index ⟨(i 0).val / 1024, ht⟩ (1 : Fin 2) * 1024 + 1024
    rw [e5]
    omega

/-- The output table after the launch: the product of the whole table with the transposed weights. -/
theorem table_out (c : Dev nD) : (dats m 0 c).arrAt 2 cfg0.N
    = matProd (m := 65536) (k := 1024) (n := 1024) (V m c main_v3) (V m c main_v5) :=
  (dats m 0 c).arrAt_eq_of_cover 2 _ (fun t _ => flushed_eq m c t) cover

/-! ## The fold after the launch, and the run -/

/-- After the launch the host folds the output table back to an image batch: the program's result is the patch-wise
    mix of its arguments. -/
theorem result_eq (c : Dev nD) :
    Pipeline.afterTail₀ cfgs (dats m) 0 (V0 m) [hostOps1] c main_v9
      = mixed (m ((c : Thread nD τ).loc main_arg0)) (m ((c : Thread nD τ).loc main_arg1)) := by
  have e6 : (Pipeline.withArrays (cfgs 0).spec c (V0 m c) (fun w => (dats m 0 c).arrAt w (cfgs 0).N)
        (Proc.devRef .tc main_v6) : S65536x1024.Idx → EReal)
      = matProd (m := 65536) (k := 1024) (n := 1024) (V m c main_v3) (V m c main_v5) :=
    (Pipeline.withArrays_arr spec0 launch0.win.arr_inj c _ _ 2).trans (table_out m c)
  unfold Pipeline.afterTail₀
  show StableHlo.after hostOps1 _ (Proc.devRef .tc main_v9) = _
  after_results
  rw [e6, table_eq, weights_eq]
  rfl

/-- Every weakly fair execution of the kernel program terminates with its result at the patch-wise mix of its
    arguments, and the arguments unchanged. -/
theorem run : θ_run defs (onTc (τ := τ) (main (F := Ideal))) ⟨m, fun _ => 0, ρ⟩ fun r => ∀ c : Dev nD,
      r.2.mem ((c.tc : Thread nD τ).loc main_v9)
        = mixed (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v9 (Pipeline.mem_restRefs_of main_v9 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KValue

end
-- ==== Proof.RefSide.lean ====
/-
  The reference program's result is the patch-wise mix of its two arguments.

  The reference cuts the image batch into patches, keeps them as one table per image, contracts each table's feature
  axis with the weights' second axis — entry (b, l, e) is the sum over d of patch (b, l)'s feature d times W(e, d) —
  and folds the result back. That contraction is the per-image product of `PatchMix`, which is the long-table
  product re-shaped.
-/
import proofs.«175172_j6133213298738_2_alg».proof.Proof.Gen.ReferenceIdeal.Read
import proofs.«175172_j6133213298738_2_alg».proof.Proof.PatchMix

open scoped BigOperators

noncomputable section

namespace Cert.ReferenceIdeal.RefValue

open Cert.ReferenceIdeal Cert.ReferenceIdeal.Gen Idealize.ShloMosaic Idealize.ShloMosaic.ValueIdx Cert.PatchMix

/-- The reference's contraction, entry by entry, is the per-image product: the left operand is read at
    (b, l, d), the weights at (e, d). -/
theorem product_eq (x0 : (⟨S16x64x256x256, .f32⟩ : BufTy).Contents (Elt Ideal))
    (x1 : (⟨S1024x1024, .f32⟩ : BufTy).Contents (Elt Ideal)) :
    Read.val_main_v3 (F := Ideal) x0 x1 = mixBatch (Read.val_main_v2 (F := Ideal) x0) x1 := by
  funext i
  rw [Read.val_main_v3_apply]
  unfold mixBatch
  refine Finset.sum_congr rfl fun k _ => ?_
  have el : Read.lidx_main_v3 i k = ix3 (i 0) (i 1) k := funext fun a => Fin.ext (by
    match a with
    | ⟨0, _⟩ => rfl
    | ⟨1, _⟩ => rfl
    | ⟨2, _⟩ => rfl)
  have er : Read.ridx_main_v3 i k = ix2 (i 2) k := funext fun a => Fin.ext (by
    match a with
    | ⟨0, _⟩ => rfl
    | ⟨1, _⟩ => rfl)
  rw [el, er]
  rfl

/-- The reference's result is the patch-wise mix of its arguments. -/
theorem result_eq (x0 : (⟨S16x64x256x256, .f32⟩ : BufTy).Contents (Elt Ideal))
    (x1 : (⟨S1024x1024, .f32⟩ : BufTy).Contents (Elt Ideal)) :
    Read.val_main_v6 (F := Ideal) x0 x1 = mixed x0 x1 := by
  unfold Read.val_main_v6 Read.val_main_v5 Read.val_main_v4
  rw [product_eq]
  unfold Read.val_main_v2 Read.val_main_v1 Read.val_main_v0
  exact mixed_eq_batch x0 x1

end Cert.ReferenceIdeal.RefValue

end
-- ==== Proof.lean ====
/-
  The patch-wise mix of an image batch: the kernel program and the reference compute one function of their two
  arguments on the extended reals.

  Both programs cut the image batch x (16×64×256×256) into 4×4 patches, read the patches as lines of 1024
  features, multiply every line by the transpose of the weights W (1024×1024) — entry e of a line's result is the sum
  over d of the line's feature d times W(e, d) — and fold the lines back into an image batch. The kernel program keeps
  the 65536 lines as one long table and multiplies it 1024 lines at a time on a grid of 64 points, rounding
  the operands to a shorter float format first; on the extended reals a change of format is the identity, a block
  of lines of a product depends only on those lines of the left operand, and the 64 blocks cover the table, so the
  table after the launch is the whole product (`KernelSide`). The reference keeps one table of 4096 lines per image
  and contracts each with the weights; line l of image b is line 4096·b + l of the long table, so this is the same
  product re-shaped (`PatchMix`, `RefSide`). Sums of extended reals may be re-ordered and re-grouped freely, so the
  finiteness of the inputs is never used.

  The three frame claims are the generated frame proofs of the two kernel programs and the reference's generated run
  with its result dropped; the ideal pass rewrote nothing, so the idealization claim is trivial.
-/
import proofs.«175172_j6133213298738_2_alg».proof.Defs
import proofs.«175172_j6133213298738_2_alg».proof.Proof.Gen.Kernel
import proofs.«175172_j6133213298738_2_alg».proof.Proof.Gen.Kernel.Frame
import proofs.«175172_j6133213298738_2_alg».proof.Proof.Gen.KernelIdeal
import proofs.«175172_j6133213298738_2_alg».proof.Proof.Gen.KernelIdeal.Frame
import proofs.«175172_j6133213298738_2_alg».proof.Proof.Gen.ReferenceIdeal
import proofs.«175172_j6133213298738_2_alg».proof.Proof.Gen.ReferenceIdeal.Run
import proofs.«175172_j6133213298738_2_alg».proof.Proof.Gen.ReferenceIdeal.Read
import proofs.«175172_j6133213298738_2_alg».proof.Proof.Gen.Pre_finite_inputs
import proofs.«175172_j6133213298738_2_alg».proof.Proof.KernelSide
import proofs.«175172_j6133213298738_2_alg».proof.Proof.RefSide

noncomputable section

namespace Cert.Proof

open Idealize.ShloMosaic Idealize.SL.Sem

/-- The word-level kernel program runs and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does the kernel program read on the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments unchanged: its run, with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- From memories that agree on the two arguments, both programs end with the patch-wise mix of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.PatchMix.mixed
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v6_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
